-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x4096 : Shape := ⟨3, ![1, 2048, 4096]⟩
abbrev S4096x4096 : Shape := ⟨2, ![4096, 4096]⟩
abbrev S4096 : Shape := ⟨1, ![4096]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1x2048x4096 .f32) (main_arg1 : FVec F S4096x4096 .f32) (main_arg2 : FVec F S4096 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1x2048x4096 : Shape := ⟨3, ![1, 2048, 4096]⟩
abbrev S4096x4096 : Shape := ⟨2, ![4096, 4096]⟩
abbrev S4096 : Shape := ⟨1, ![4096]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S2048x4096 : Shape := ⟨2, ![2048, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 67
  | .vmem => 6
  | .smem => 0
  | _ => 0

abbrev bufTy : (tb : Table) → Fin (tcTables nBuf tb) → BufTy
  | .hbm, ⟨0, _⟩ => ⟨S1x2048x4096, .f32⟩
  | .hbm, ⟨1, _⟩ => ⟨S4096x4096, .f32⟩
  | .hbm, ⟨2, _⟩ => ⟨S4096, .f32⟩
  | .hbm, ⟨3, _⟩ => ⟨S1x2048x4096, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x4096, .f32⟩
  | .hbm, ⟨15, _⟩ => ⟨S1x2048x4096, .f32⟩
  | .hbm, ⟨16, _⟩ => ⟨S1x1x4096, .f32⟩
  | .hbm, ⟨17, _⟩ => ⟨S1x2048x4096, .f32⟩
  | .hbm, ⟨18, _⟩ => ⟨S1x2048x4096, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S2048x4096, .bf16⟩
  | .hbm, ⟨61, _⟩ => ⟨S4096x4096, .bf16⟩
  | .hbm, ⟨62, _⟩ => ⟨S2048x4096, .f32⟩
  | .hbm, ⟨63, _⟩ => ⟨S_, .f32⟩
  | .hbm, ⟨64, _⟩ => ⟨S2048x4096, .f32⟩
  | .hbm, ⟨65, _⟩ => ⟨S2048x4096, .f32⟩
  | .hbm, ⟨66, _⟩ => ⟨S1x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_cst_9 : Ref sig .tc := ⟨.hbm, 44, rfl⟩
abbrev main_call3_v0 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_cst_12 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  shapeCasts_S1x2048x4096_S2048x4096 : S1x2048x4096.ShapeCasts S2048x4096
  reducesTo_S2048x4096_S_d0_1 : S2048x4096.ReducesTo [0, 1] S_
  bcast_S_S2048x4096 : S_.BroadcastsInDim S2048x4096 (![] : Fin 0 → Fin S2048x4096.rank)
  reducesTo_S4096x4096_S_d0_1 : S4096x4096.ReducesTo [0, 1] S_
  bcast_S_S4096x4096 : S_.BroadcastsInDim S4096x4096 (![] : Fin 0 → Fin S4096x4096.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S2048x4096_S1x2048x4096 : S2048x4096.ShapeCasts S1x2048x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x4096.size a
  hwx0_2 : ∀ i : grid0.Coords, EltTy.bits .f32 = 32 ∨ (Rect.block (s := S2048x4096) S512x512.size (cc0_transform_2 i) (hinb0_2 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v31) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x2048x4096 : Shape := ⟨3, ![1, 2048, 4096]⟩
abbrev S4096x4096 : Shape := ⟨2, ![4096, 4096]⟩
abbrev S4096 : Shape := ⟨1, ![4096]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S2048x4096 : Shape := ⟨2, ![2048, 4096]⟩

abbrev nBuf : Space → Nat
  | .hbm => 65
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096x4096, .f32⟩
  | .hbm, ⟨2, _⟩ => ⟨S4096, .f32⟩
  | .hbm, ⟨3, _⟩ => ⟨S1x2048x4096, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x4096, .f32⟩
  | .hbm, ⟨15, _⟩ => ⟨S1x2048x4096, .f32⟩
  | .hbm, ⟨16, _⟩ => ⟨S1x1x4096, .f32⟩
  | .hbm, ⟨17, _⟩ => ⟨S1x2048x4096, .f32⟩
  | .hbm, ⟨18, _⟩ => ⟨S1x2048x4096, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S2048x4096, .f32⟩
  | .hbm, ⟨61, _⟩ => ⟨S_, .f32⟩
  | .hbm, ⟨62, _⟩ => ⟨S2048x4096, .f32⟩
  | .hbm, ⟨63, _⟩ => ⟨S2048x4096, .f32⟩
  | .hbm, ⟨64, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_cst_9 : Ref sig .tc := ⟨.hbm, 44, rfl⟩
abbrev main_call3_v0 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_cst_12 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩

abbrev nD : Nat := 1
abbrev τ : Topo := Topo.v7x

variable {F : FTy → Type} [FloatOps F]

class Facts₀ : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  shapeCasts_S1x2048x4096_S2048x4096 : S1x2048x4096.ShapeCasts S2048x4096
  reducesTo_S2048x4096_S_d0_1 : S2048x4096.ReducesTo [0, 1] S_
  bcast_S_S2048x4096 : S_.BroadcastsInDim S2048x4096 (![] : Fin 0 → Fin S2048x4096.rank)
  reducesTo_S4096x4096_S_d0_1 : S4096x4096.ReducesTo [0, 1] S_
  bcast_S_S4096x4096 : S_.BroadcastsInDim S4096x4096 (![] : Fin 0 → Fin S4096x4096.rank)
  shapeCasts_S2048x4096_S1x2048x4096 : S2048x4096.ShapeCasts S1x2048x4096
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.MatrixProduct.lean ====
/-
  The product of a 2048 × 4096 matrix with a 4096 × 4096 matrix over the extended reals, written entry by
  entry: entry (r, c) is the sum over k of A (r, k) · B (k, c). Both programs compute this function of the
  quantized activations A and the ternary weights B: the kernel tile by tile (a 512 × 512 tile of the result
  from 512 whole rows of A and 512 whole columns of B, the whole contraction in one step), the reference as
  one contraction. Over the extended reals a finite sum does not depend on any grouping, so the two are the
  same sum term by term and no finiteness of the entries is asked for.
-/
import Idealize.ShloMosaic.Lib.ValueIdx
import Idealize.ShloMosaic.PureOps.Ideal

noncomputable section

namespace Cert.MatrixProduct

open Idealize.ShloMosaic

/-- The shape of the left factor and of the product: 2048 rows, 4096 columns. -/
abbrev Rows : Shape := ⟨2, ![2048, 4096]⟩
/-- The shape of the right factor: 4096 rows, 4096 columns. -/
abbrev Sq : Shape := ⟨2, ![4096, 4096]⟩

/-- The entry of the left factor that the product's entry `i` = (r, c) meets at contraction position `k`: (r, k). -/
abbrev leftAt (i : Rows.Idx) (k : Fin 4096) : Rows.Idx := fun a => match a with
  | ⟨0, _⟩ => ⟨(i 0).val, (i 0).isLt⟩
  | ⟨1, _⟩ => ⟨k.val, k.isLt⟩

/-- The entry of the right factor met there: (k, c). -/
abbrev rightAt (i : Rows.Idx) (k : Fin 4096) : Sq.Idx := fun a => match a with
  | ⟨0, _⟩ => ⟨k.val, k.isLt⟩
  | ⟨1, _⟩ => ⟨(i 1).val, (i 1).isLt⟩

/-- The matrix product, entry by entry. -/
def prod (A : Rows.Idx → EReal) (B : Sq.Idx → EReal) : Rows.Idx → EReal :=
  fun i => ∑ k : Fin 4096, A (leftAt i k) * B (rightAt i k)

theorem prod_apply (A : Rows.Idx → EReal) (B : Sq.Idx → EReal) (i : Rows.Idx) :
    prod A B i = ∑ k : Fin 4096, A (leftAt i k) * B (rightAt i k) := rfl

/-- The shape of a scalar. -/
abbrev Scalar : Shape := ⟨0, ![]⟩
/-- The shape of the result: the product with a leading axis of extent one. -/
abbrev Out : Shape := ⟨3, ![1, 2048, 4096]⟩

theorem scalar_to_rows : Scalar.BroadcastsInDim Rows (![] : Fin 0 → Fin Rows.rank) := by decide
theorem rows_to_out : Rows.ShapeCasts Out := by decide

/-- The last lines of both programs: the product is divided, entry by entry, by the product of the activation
    scale and the weight scale, and the quotient is given its leading axis of extent one. Both programs apply it
    to the same two scales; it is carried as one function and never opened. -/
def dequant (P : FVec Ideal Rows .f32) (sa sb : FVec Ideal Scalar .f32) : FVec Ideal Out .f32 :=
  shapeCast Out (Host.divf P (broadcastInDim Rows ![] scalar_to_rows (mulf sa sb))) rows_to_out

end Cert.MatrixProduct

end
-- ==== Proof.TileProduct.lean ====
/-
  One tile of the kernel's matrix product. At a grid point the body loads a band of 512 whole rows of the left
  factor and a strip of 512 whole columns of the right factor, multiplies them into a zero accumulator and stores
  the 512 × 512 result. Read at the extended reals, entry (p, q) of that result is the sum over the 4096
  contraction positions k of band (p, k) · strip (k, q): the contraction index of the product is its one
  coordinate, and the zero accumulator adds nothing.
-/
import proofs.«148768_j56298431316339_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic

/-- Entry (p, k) of the band, for the tile's entry `y` = (p, q). -/
abbrev bandAt (y : S512x512.Idx) (k : Fin 4096) : S512x4096.Idx := fun a => match a with
  | ⟨0, _⟩ => ⟨(y 0).val, (y 0).isLt⟩
  | ⟨1, _⟩ => ⟨k.val, k.isLt⟩

/-- Entry (k, q) of the strip. -/
abbrev stripAt (y : S512x512.Idx) (k : Fin 4096) : S4096x512.Idx := fun a => match a with
  | ⟨0, _⟩ => ⟨k.val, k.isLt⟩
  | ⟨1, _⟩ => ⟨(y 1).val, (y 1).isLt⟩

/-- The left operand's row is the tile entry's row. -/
theorem lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- Its column is the contraction position. -/
theorem lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- The right operand's row is the contraction position. -/
theorem rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- Its column is the tile entry's column. -/
theorem rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The stored tile, entry by entry: the sum over the contraction positions of band · strip. -/
theorem tile_apply (x0 : FVec Ideal S512x4096 .bf16) (x1 : FVec Ideal S4096x512 .bf16) (y : S512x512.Idx) :
    k0_pay1 (F := Ideal) x0 x1 y = ∑ k : Fin 4096, x0 (bandAt y k) * x1 (stripAt y k) := by
  show matmul dot_S512x4096_S4096x512_S512x512_1_0_0_1_n_n none (shapeCast S512x4096 x0 shapeCasts_S512x4096_S512x4096)
      (shapeCast S4096x512 x1 shapeCasts_S4096x512_S4096x512) (constant S512x512 .f32 0x00000000#32) y = _
  rw [shapeCast_self, shapeCast_self]
  simp only [matmul]
  rw [Ideal.matmul_constant_zero_apply, ← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx y ((ValueIdx.contrEquiv1 dot_S512x4096_S4096x512_S512x512_1_0_0_1_n_n 4096 rfl rfl).symm k) = bandAt y k := funext fun a => Fin.ext (by
    match a with
    | ⟨0, _⟩ => exact lhs_row _ _
    | ⟨1, _⟩ => exact (lhs_col _ _).trans hk)
  have er : dot_S512x4096_S4096x512_S512x512_1_0_0_1_n_n.rhsIdx y ((ValueIdx.contrEquiv1 dot_S512x4096_S4096x512_S512x512_1_0_0_1_n_n 4096 rfl rfl).symm k) = stripAt y k := funext fun a => Fin.ext (by
    match a with
    | ⟨0, _⟩ => exact (rhs_row _ _).trans hk
    | ⟨1, _⟩ => exact rhs_col _ _)
  rw [el, er]

end Cert.KernelIdeal.Tile

end
-- ==== Proof.Tiles.lean ====
/-
  From tiles to the whole product. The grid is 4 × 8: point (i, j) reads rows 512·i … 512·i + 511 of the left
  factor (all 4096 columns), columns 512·j … 512·j + 511 of the right factor (all 4096 rows), and writes tile
  (i, j) of the 2048 × 4096 result. So what a point writes back is the restriction to its tile of ONE function of
  the two arrays the region finds, their matrix product; every entry (r, c) of the result lies in the tile of the
  point (r / 512, c / 512); hence after the last write-back the result array IS the matrix product.
-/
import proofs.«148768_j56298431316339_1_alg».proof.Proof.Gen.KernelIdeal.Frame
import proofs.«148768_j56298431316339_1_alg».proof.Proof.MatrixProduct
import proofs.«148768_j56298431316339_1_alg».proof.Proof.TileProduct

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- How the three block index maps move over the grid: the band follows the tile's row index and stays at column
    block 0, the strip stays at row block 0 and follows the tile's column index, and the tile's indices range over
    4 × 8. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every tile of the 4 × 8 arrangement is some point's. -/
theorem every_tile : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- The left array the region finds (the quantized activations, already rounded to the matrix unit's input
    format, which at the extended reals changes nothing), as a matrix. -/
abbrev lhsArr (c : Dev nD) : MatrixProduct.Rows.Idx → EReal := V m c main_v31
/-- The right array the region finds (the ternary weights), as a matrix. -/
abbrev rhsArr (c : Dev nD) : MatrixProduct.Sq.Idx → EReal := V m c main_v32

/-- Entry (p, k) of point `t`'s band is entry (row of the tile entry, k) of the left array. -/
theorem band_read (c : Dev nD) (t : Fin cfg0.N) (y : S512x512.Idx) (k : Fin 4096) :
    iblk m c 0 t (Tile.bandAt y k) = lhsArr m c (MatrixProduct.leftAt (((cfg0.win 2).blk t).view.emb y) k) := by
  obtain ⟨e0, e1, -, -, -, -⟩ := index_maps t
  show V m c main_v31 (((cfg0.win 0).blk t).view.emb (Tile.bandAt y k)) = V m c main_v31 _
  refine congrArg (V m c main_v31) (funext fun a => Fin.ext ?_)
  match a with
  | ⟨0, _⟩ => show win0_0.index t (0 : Fin 2) * 512 + 1 * (y 0).val = win0_2.index t (0 : Fin 2) * 512 + 1 * (y 0).val; omega
  | ⟨1, _⟩ => show win0_0.index t (1 : Fin 2) * 4096 + 1 * k.val = k.val; omega

/-- Entry (k, q) of point `t`'s strip is entry (k, column of the tile entry) of the right array. -/
theorem strip_read (c : Dev nD) (t : Fin cfg0.N) (y : S512x512.Idx) (k : Fin 4096) :
    iblk m c 1 t (Tile.stripAt y k) = rhsArr m c (MatrixProduct.rightAt (((cfg0.win 2).blk t).view.emb y) k) := by
  obtain ⟨-, -, e2, e3, -, -⟩ := index_maps t
  show V m c main_v32 (((cfg0.win 1).blk t).view.emb (Tile.stripAt y k)) = V m c main_v32 _
  refine congrArg (V m c main_v32) (funext fun a => Fin.ext ?_)
  match a with
  | ⟨0, _⟩ => show win0_1.index t (0 : Fin 2) * 4096 + 1 * k.val = k.val; omega
  | ⟨1, _⟩ => show win0_1.index t (1 : Fin 2) * 512 + 1 * (y 1).val = win0_2.index t (1 : Fin 2) * 512 + 1 * (y 1).val; omega

/-- What point `t` writes back is tile `t` of the matrix product of the two arrays the region finds. -/
theorem flushed_eq (c : Dev nD) (t : Fin cfg0.N) :
    (dats m 0 c).flushed 2 t
      = ((cfg0.win 2).blk t).view.read (Elt Ideal) (MatrixProduct.prod (lhsArr m c) (rhsArr m c)) := by
  show (cfg0.win 2).cut (grid0.coords t) ((dats m 0 c).after 2 t) = _
  rw [after0_2]
  unfold out0_2
  rw [View.canon_unit_zero origin]
  simp only [View.ld_unit_zero (S := S512x4096) origin, View.ld_unit_zero (S := S4096x512) origin]
  funext y
  show k0_pay1 (F := Ideal) (iblk m c 0 t) (iblk m c 1 t) y
    = MatrixProduct.prod (lhsArr m c) (rhsArr m c) (((cfg0.win 2).blk t).view.emb y)
  rw [Tile.tile_apply, MatrixProduct.prod_apply]
  refine Finset.sum_congr rfl fun k _ => ?_
  rw [band_read, strip_read]

/-- An entry of the result is in point `t`'s tile iff each coordinate is in the tile's range on its axis. -/
theorem mem_tile (t : Fin cfg0.N) (i : S2048x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v33).slice (win0_2.rect t)).set ↔ _
  rw [View.set_slice_whole, Rect.mem_set_unit]
  exact Iff.rfl

/-- Every entry (r, c) of the result is in the tile of the point with indices (r / 512, c / 512). -/
theorem covered (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := every_tile ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the run is the matrix product of the two arrays the region finds. -/
theorem result_array (c : Dev nD) :
    (dats m 0 c).arrAt 2 cfg0.N = MatrixProduct.prod (lhsArr m c) (rhsArr m c) :=
  (dats m 0 c).arrAt_eq_of_cover 2 (MatrixProduct.prod (lhsArr m c) (rhsArr m c))
    (fun t _ => flushed_eq m c t) (covered)

end Cert.KernelIdeal.Tiles

end
-- ==== Proof.KernelResult.lean ====
/-
  The kernel program's result. After the grid the program multiplies the two scales, spreads the product over the
  2048 × 4096 shape, divides the kernel's output array by it entry by entry and gives the quotient a leading axis
  of extent one. The output array is the matrix product of the two arrays the region found (the tiles cover it),
  so the result is the dequantized matrix product.
-/
import proofs.«148768_j56298431316339_1_alg».proof.Proof.Gen.KernelIdeal.Frame
import proofs.«148768_j56298431316339_1_alg».proof.Proof.MatrixProduct
import proofs.«148768_j56298431316339_1_alg».proof.Proof.Tiles

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The lines after the grid, read: the dequantization of the output array by the two scales as the region left them. -/
theorem tail_value (c : Dev nD) :
    Pipeline.afterTail₀ cfgs (dats m) 0 (V0 m) [hostOps1] c main_v37
      = MatrixProduct.dequant ((dats m 0 c).arrAt 2 cfg0.N) (V m c main_v17) (V m c main_v26) := by
  unfold Pipeline.afterTail₀
  show StableHlo.after hostOps1 _ (Proc.devRef .tc main_v37) = _
  after_results
  rw [Pipeline.withArrays_arr spec0 launch0.win.arr_inj c _ _ 2,
    Pipeline.withArrays_of_ne _ c _ _ main_v17 (by exact (by decide : ∀ w, Pipeline.arrRef spec0 w ≠ main_v17)),
    Pipeline.withArrays_of_ne _ c _ _ main_v26 (by exact (by decide : ∀ w, Pipeline.arrRef spec0 w ≠ main_v26))]
  rfl

/-- The kernel program's result array: the dequantized matrix product of the two arrays the region found. -/
theorem result_value (c : Dev nD) :
    Pipeline.afterTail₀ cfgs (dats m) 0 (V0 m) [hostOps1] c main_v37
      = MatrixProduct.dequant (MatrixProduct.prod (Tiles.lhsArr m c) (Tiles.rhsArr m c)) (V m c main_v17) (V m c main_v26) := by
  rw [tail_value, Tiles.result_array]

/-- The kernel program's run, read: every weakly fair execution ends with the result buffer at the dequantized matrix
    product of the two arrays the region found, and the argument arrays as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v37)
        = MatrixProduct.dequant (MatrixProduct.prod (Tiles.lhsArr m c) (Tiles.rhsArr m c)) (V m c main_v17) (V m c main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v37 (Pipeline.mem_restRefs_of main_v37 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.SharedPrefix.lean ====
/-
  The host lines before the grid are the same text in both programs: RMS-normalize the activations, scale them by
  127 over the largest magnitude, round and clip to [-128, 127]; scale the weights by one over their mean
  magnitude, round and clip to [-1, 1]. So from argument arrays that agree, the two programs reach the grid
  (the kernel program) and the contraction (the reference) with the same quantized activations, the same ternary
  weights and the same two scales. They are compared as the two programs' own folds of the same operations, line
  against line, and never opened: only the kernel program's final rounding of the two factors to the matrix unit's
  input format is peeled off, which at the extended reals changes nothing.
-/
import proofs.«148768_j56298431316339_1_alg».proof.Proof.Gen.KernelIdeal.Launch
import proofs.«148768_j56298431316339_1_alg».proof.Proof.ReferenceRun
import proofs.«148768_j56298431316339_1_alg».proof.Proof.MatrixProduct

set_option maxRecDepth 16384

noncomputable section

namespace Cert.SharedPrefix

open Idealize.ShloMosaic Idealize.ShloMosaic.TcCoe Idealize.SL.Sem Idealize.ShloMosaic.StableHlo

/-- The kernel program's host lines before the grid, in order. -/
abbrev kernelLines : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12]

variable (M : Valuation Cert.KernelIdeal.τ Cert.KernelIdeal.sig (Elt Ideal))
  (M' : Valuation Cert.ReferenceIdeal.τ Cert.ReferenceIdeal.sig (Elt Ideal))

set_option maxHeartbeats 4000000 in
/-- The quantized activations: what the kernel program hands the grid as its left factor is what the reference
    contracts on the left. -/
theorem activations
    (h0 : M' (Proc.devRef .tc Cert.ReferenceIdeal.main_arg0) = M (Proc.devRef .tc Cert.KernelIdeal.main_arg0))
    (h2 : M' (Proc.devRef .tc Cert.ReferenceIdeal.main_arg2) = M (Proc.devRef .tc Cert.KernelIdeal.main_arg2)) :
    (after kernelLines M (Proc.devRef .tc Cert.KernelIdeal.main_v31) : MatrixProduct.Rows.Idx → EReal)
      = after (Cert.ReferenceIdeal.RunP.ops (F := Ideal)) M' (Proc.devRef .tc Cert.ReferenceIdeal.main_v21) := by
  have key : after kernelLines M (Proc.devRef .tc Cert.KernelIdeal.main_v31)
      = truncf (F := Ideal) (s := Cert.ReferenceIdeal.S2048x4096) (φ := .f32) .bf16
          (after (Cert.ReferenceIdeal.RunP.ops (F := Ideal)) M' (Proc.devRef .tc Cert.ReferenceIdeal.main_v21)) (by decide) := by
    simp only [kernelLines, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.ReferenceIdeal.RunP.ops,
      List.flatten_cons, List.flatten_nil, List.append_nil, List.cons_append, List.nil_append]
    after_results_simp
    rw [h0, h2]
    rfl
  rw [key]
  rfl

set_option maxHeartbeats 4000000 in
/-- The ternary weights: what the kernel program hands the grid as its right factor is what the reference contracts
    on the right. -/
theorem weights
    (h1 : M' (Proc.devRef .tc Cert.ReferenceIdeal.main_arg1) = M (Proc.devRef .tc Cert.KernelIdeal.main_arg1)) :
    (after kernelLines M (Proc.devRef .tc Cert.KernelIdeal.main_v32) : MatrixProduct.Sq.Idx → EReal)
      = after (Cert.ReferenceIdeal.RunP.ops (F := Ideal)) M' (Proc.devRef .tc Cert.ReferenceIdeal.main_v30) := by
  have key : after kernelLines M (Proc.devRef .tc Cert.KernelIdeal.main_v32)
      = truncf (F := Ideal) (s := Cert.ReferenceIdeal.S4096x4096) (φ := .f32) .bf16
          (after (Cert.ReferenceIdeal.RunP.ops (F := Ideal)) M' (Proc.devRef .tc Cert.ReferenceIdeal.main_v30)) (by decide) := by
    simp only [kernelLines, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.ReferenceIdeal.RunP.ops,
      List.flatten_cons, List.flatten_nil, List.append_nil, List.cons_append, List.nil_append]
    after_results_simp
    rw [h1]
  rw [key]
  rfl

set_option maxHeartbeats 4000000 in
/-- The activation scale, 127 over the largest magnitude of the normalized activations (at least 1e-5). -/
theorem activation_scale
    (h0 : M' (Proc.devRef .tc Cert.ReferenceIdeal.main_arg0) = M (Proc.devRef .tc Cert.KernelIdeal.main_arg0))
    (h2 : M' (Proc.devRef .tc Cert.ReferenceIdeal.main_arg2) = M (Proc.devRef .tc Cert.KernelIdeal.main_arg2)) :
    (after kernelLines M (Proc.devRef .tc Cert.KernelIdeal.main_v17) : MatrixProduct.Scalar.Idx → EReal)
      = after (Cert.ReferenceIdeal.RunP.ops (F := Ideal)) M' (Proc.devRef .tc Cert.ReferenceIdeal.main_v17) := by
  simp only [kernelLines, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.ReferenceIdeal.RunP.ops,
      List.flatten_cons, List.flatten_nil, List.append_nil, List.cons_append, List.nil_append]
  after_results_simp
  rw [h0, h2]
  rfl

set_option maxHeartbeats 4000000 in
/-- The weight scale, one over the mean magnitude of the weights (at least 1e-5). -/
theorem weight_scale
    (h1 : M' (Proc.devRef .tc Cert.ReferenceIdeal.main_arg1) = M (Proc.devRef .tc Cert.KernelIdeal.main_arg1)) :
    (after kernelLines M (Proc.devRef .tc Cert.KernelIdeal.main_v26) : MatrixProduct.Scalar.Idx → EReal)
      = after (Cert.ReferenceIdeal.RunP.ops (F := Ideal)) M' (Proc.devRef .tc Cert.ReferenceIdeal.main_v26) := by
  simp only [kernelLines, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.ReferenceIdeal.RunP.ops,
      List.flatten_cons, List.flatten_nil, List.append_nil, List.cons_append, List.nil_append]
  after_results_simp
  rw [h1]

set_option maxHeartbeats 4000000 in
/-- The reference's last lines, read: its result is the dequantization, by the two scales, of the contraction of the
    quantized activations with the ternary weights — each of the four still the program's own fold. -/
theorem reference_tail :
    after (Cert.ReferenceIdeal.RunP.ops (F := Ideal)) M' (Proc.devRef .tc Cert.ReferenceIdeal.main_v35)
      = MatrixProduct.dequant
          (Host.dotGeneral (φ₁ := .f32) (φ₂ := .f32) Cert.ReferenceIdeal.dot_S2048x4096_S4096x4096_S2048x4096_1_0_0_1_n_n none
            (after (Cert.ReferenceIdeal.RunP.ops (F := Ideal)) M' (Proc.devRef .tc Cert.ReferenceIdeal.main_v21))
            (after (Cert.ReferenceIdeal.RunP.ops (F := Ideal)) M' (Proc.devRef .tc Cert.ReferenceIdeal.main_v30)))
          (after (Cert.ReferenceIdeal.RunP.ops (F := Ideal)) M' (Proc.devRef .tc Cert.ReferenceIdeal.main_v17))
          (after (Cert.ReferenceIdeal.RunP.ops (F := Ideal)) M' (Proc.devRef .tc Cert.ReferenceIdeal.main_v26)) := by
  simp only [Cert.ReferenceIdeal.RunP.ops]
  after_results_simp
  rfl

end Cert.SharedPrefix

end
-- ==== Proof.Contraction.lean ====
/-
  The reference's contraction. Read at the extended reals, the host's contraction of a 2048 × 4096 matrix with a
  4096 × 4096 matrix over the first's columns and the second's rows is the matrix product entry by entry: the
  contraction index is its one coordinate k, the left operand is read at (row of the entry, k) and the right at
  (k, column of the entry).
-/
import proofs.«148768_j56298431316339_1_alg».proof.Proof.Gen.ReferenceIdeal
import proofs.«148768_j56298431316339_1_alg».proof.Proof.MatrixProduct
import Idealize.ShloMosaic.Lib.ValueIdx
import Idealize.ShloMosaic.PureOps.Ideal.Laws

noncomputable section

namespace Cert.ReferenceIdeal.Contraction

open Cert.ReferenceIdeal Cert.ReferenceIdeal.Gen Idealize.ShloMosaic

/-- The left operand's row is the entry's row. -/
theorem lhs_row (i : S2048x4096.Idx) (q : dot_S2048x4096_S4096x4096_S2048x4096_1_0_0_1_n_n.contr.Idx) :
    (dot_S2048x4096_S4096x4096_S2048x4096_1_0_0_1_n_n.lhsIdx i q 0).val = (i 0).val := by
  unfold DotDims.lhsIdx
  rw [dif_neg (show ¬(0 : Fin S2048x4096.rank) ∈ dot_S2048x4096_S4096x4096_S2048x4096_1_0_0_1_n_n.lhsBatch by decide), dif_pos (show (0 : Fin S2048x4096.rank) ∈ dot_S2048x4096_S4096x4096_S2048x4096_1_0_0_1_n_n.lhsNonContracting by decide)]
  rfl
/-- Its column is the contraction position. -/
theorem lhs_col (i : S2048x4096.Idx) (q : dot_S2048x4096_S4096x4096_S2048x4096_1_0_0_1_n_n.contr.Idx) :
    (dot_S2048x4096_S4096x4096_S2048x4096_1_0_0_1_n_n.lhsIdx i q 1).val = (q ⟨0, by decide⟩).val :=
  dot_S2048x4096_S4096x4096_S2048x4096_1_0_0_1_n_n.lhsIdx_val_of_single rfl i q
/-- The right operand's row is the contraction position. -/
theorem rhs_row (i : S2048x4096.Idx) (q : dot_S2048x4096_S4096x4096_S2048x4096_1_0_0_1_n_n.contr.Idx) :
    (dot_S2048x4096_S4096x4096_S2048x4096_1_0_0_1_n_n.rhsIdx i q 0).val = (q ⟨0, by decide⟩).val :=
  dot_S2048x4096_S4096x4096_S2048x4096_1_0_0_1_n_n.rhsIdx_val_of_single rfl i q
/-- Its column is the entry's column. -/
theorem rhs_col (i : S2048x4096.Idx) (q : dot_S2048x4096_S4096x4096_S2048x4096_1_0_0_1_n_n.contr.Idx) :
    (dot_S2048x4096_S4096x4096_S2048x4096_1_0_0_1_n_n.rhsIdx i q 1).val = (i 1).val := by
  unfold DotDims.rhsIdx
  rw [dif_neg (show ¬(1 : Fin S4096x4096.rank) ∈ dot_S2048x4096_S4096x4096_S2048x4096_1_0_0_1_n_n.rhsBatch by decide), dif_pos (show (1 : Fin S4096x4096.rank) ∈ dot_S2048x4096_S4096x4096_S2048x4096_1_0_0_1_n_n.rhsNonContracting by decide)]
  rfl

/-- The host's contraction is the matrix product. -/
theorem contraction (A : FVec Ideal S2048x4096 .f32) (B : FVec Ideal S4096x4096 .f32) :
    Host.dotGeneral dot_S2048x4096_S4096x4096_S2048x4096_1_0_0_1_n_n none A B = MatrixProduct.prod A B := by
  funext i
  simp only [Host.dotGeneral]
  rw [Ideal.dotGeneral_apply, ← Equiv.sum_comp (ValueIdx.contrEquiv1 dot_S2048x4096_S4096x4096_S2048x4096_1_0_0_1_n_n 4096 rfl rfl).symm, MatrixProduct.prod_apply]
  refine Finset.sum_congr rfl fun k _ => ?_
  have hk := ValueIdx.contrEquiv1_symm_val dot_S2048x4096_S4096x4096_S2048x4096_1_0_0_1_n_n 4096 rfl rfl k
  have el : dot_S2048x4096_S4096x4096_S2048x4096_1_0_0_1_n_n.lhsIdx i ((ValueIdx.contrEquiv1 dot_S2048x4096_S4096x4096_S2048x4096_1_0_0_1_n_n 4096 rfl rfl).symm k) = MatrixProduct.leftAt i k := funext fun a => Fin.ext (by
    match a with
    | ⟨0, _⟩ => exact lhs_row _ _
    | ⟨1, _⟩ => exact (lhs_col _ _).trans hk)
  have er : dot_S2048x4096_S4096x4096_S2048x4096_1_0_0_1_n_n.rhsIdx i ((ValueIdx.contrEquiv1 dot_S2048x4096_S4096x4096_S2048x4096_1_0_0_1_n_n 4096 rfl rfl).symm k) = MatrixProduct.rightAt i k := funext fun a => Fin.ext (by
    match a with
    | ⟨0, _⟩ => exact (rhs_row _ _).trans hk
    | ⟨1, _⟩ => exact rhs_col _ _)
  rw [el, er]

end Cert.ReferenceIdeal.Contraction

end
-- ==== Proof.Bridge.lean ====
/-
  The two results are one function of the arguments. The reference's result is the dequantization, by the two
  scales, of its contraction of the quantized activations with the ternary weights; the contraction is the matrix
  product; and the activations, the weights and the two scales are the ones the kernel program reached its grid
  with, because the two programs ran the same lines on arguments that agree. The kernel program's result is the
  dequantization, by the same scales, of the matrix product its tiles cover. No property of the numbers is used: a
  finite sum over the extended reals is the same however it is tiled.
-/
import proofs.«148768_j56298431316339_1_alg».proof.Proof.Gen.KernelIdeal.Frame
import proofs.«148768_j56298431316339_1_alg».proof.Proof.MatrixProduct
import proofs.«148768_j56298431316339_1_alg».proof.Proof.Tiles
import proofs.«148768_j56298431316339_1_alg».proof.Proof.SharedPrefix
import proofs.«148768_j56298431316339_1_alg».proof.Proof.Contraction

set_option maxRecDepth 16384

noncomputable section

namespace Cert.Bridge

open Idealize.ShloMosaic Idealize.ShloMosaic.TcCoe Idealize.SL.Sem Idealize.ShloMosaic.StableHlo

/-- From memories that agree on the three arguments, the reference's result buffer ends at the dequantized matrix
    product the kernel program's result buffer ends at. -/
theorem reference_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after (Cert.ReferenceIdeal.RunP.ops (F := Ideal)) (launchContents m' c) (Proc.devRef .tc Cert.ReferenceIdeal.main_v35)
      = MatrixProduct.dequant (MatrixProduct.prod (Cert.KernelIdeal.Tiles.lhsArr m c) (Cert.KernelIdeal.Tiles.rhsArr m c))
          (Cert.KernelIdeal.Gen.V m c Cert.KernelIdeal.main_v17) (Cert.KernelIdeal.Gen.V m c Cert.KernelIdeal.main_v26) := by
  have e1 := SharedPrefix.activations (fun b => m (c, b)) (launchContents m' c) h0 h2
  have e2 := SharedPrefix.weights (fun b => m (c, b)) (launchContents m' c) h1
  have e3 := SharedPrefix.activation_scale (fun b => m (c, b)) (launchContents m' c) h0 h2
  have e4 := SharedPrefix.weight_scale (fun b => m (c, b)) (launchContents m' c) h1
  rw [SharedPrefix.reference_tail, Cert.ReferenceIdeal.Contraction.contraction, ← e1, ← e2, ← e3, ← e4]

end Cert.Bridge

end
-- ==== Proof.lean ====
/-
  BitLinear: RMS-normalize the activations, quantize them to integers in [-128, 127] by one scale for the whole
  tensor, quantize the weights to {-1, 0, 1} by one scale, multiply, and divide the product by the product of the two
  scales. The kernel program and the reference are the same lines up to the multiplication; there the kernel program
  rounds both factors to the matrix unit's 16-bit input format — the identity at the extended reals — and multiplies
  tile by tile on a 4 × 8 grid, each 512 × 512 tile from 512 whole rows and 512 whole columns in one contraction of
  length 4096, where the reference contracts once. Entry (r, c) of either product is the sum over k of
  activations (r, k) · weights (k, c): the same finite sum of extended reals, term by term, so the two results are
  equal whatever the entries are, and the precondition is not used.

  The three frames: the kernel program's two are the generated frame certificates; the reference's is its run with
  the result dropped. The idealization rewrote nothing, so `preserves` asks nothing.
-/
import proofs.«148768_j56298431316339_1_alg».proof.Defs
import proofs.«148768_j56298431316339_1_alg».proof.Proof.Gen.Kernel
import proofs.«148768_j56298431316339_1_alg».proof.Proof.Gen.Kernel.Skeleton
import proofs.«148768_j56298431316339_1_alg».proof.Proof.Gen.Kernel.Launch
import proofs.«148768_j56298431316339_1_alg».proof.Proof.Gen.Kernel.Points
import proofs.«148768_j56298431316339_1_alg».proof.Proof.Gen.Kernel.Frame
import proofs.«148768_j56298431316339_1_alg».proof.Proof.Gen.KernelIdeal
import proofs.«148768_j56298431316339_1_alg».proof.Proof.Gen.KernelIdeal.Skeleton
import proofs.«148768_j56298431316339_1_alg».proof.Proof.Gen.KernelIdeal.Launch
import proofs.«148768_j56298431316339_1_alg».proof.Proof.Gen.KernelIdeal.Points
import proofs.«148768_j56298431316339_1_alg».proof.Proof.Gen.KernelIdeal.Frame
import proofs.«148768_j56298431316339_1_alg».proof.Proof.Gen.ReferenceIdeal
import proofs.«148768_j56298431316339_1_alg».proof.Proof.Gen.Pre_finite_inputs
import proofs.«148768_j56298431316339_1_alg».proof.Proof.ReferenceRun
import proofs.«148768_j56298431316339_1_alg».proof.Proof.KernelResult
import proofs.«148768_j56298431316339_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both idealized programs end, from memories that agree on the arguments, with the dequantized matrix product of
    the quantized activations and the ternary weights in their result buffers. -/
theorem algebraic : Cert.algebraic_KernelIdeal_ReferenceIdeal := by
  intro m ρ m' ρ' _ hagree
  refine ⟨fun c => MatrixProduct.dequant
      (MatrixProduct.prod (Cert.KernelIdeal.Tiles.lhsArr m c) (Cert.KernelIdeal.Tiles.rhsArr m c))
      (Cert.KernelIdeal.Gen.V m c Cert.KernelIdeal.main_v17) (Cert.KernelIdeal.Gen.V m c Cert.KernelIdeal.main_v26),
    Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  exact Cert.Bridge.reference_value m m' c (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
